-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x2x1024 : Shape := ⟨3, ![32768, 2, 1024]⟩
abbrev S_ : Shape := ⟨0, ![]⟩

class Facts : Prop where
  bcast_S_S32768x2x1024 : S_.BroadcastsInDim S32768x2x1024 (![] : Fin 0 → Fin S32768x2x1024.rank)
  reducesTo_S32768x2x1024_S_d0_1_2 : S32768x2x1024.ReducesTo [0, 1, 2] S_
  h_S_ : 0 < S_.numel

variable [Facts]

def fn {F : FTy → Type} [FloatOps F] (main_arg0 : FVec F S32768x2x1024 .f32) (main_arg1 : FVec F S32768x2x1024 .f32) : IVec S_ 1 :=
  let main_v0 : FVec F S32768x2x1024 .f32 := Host.absf main_arg0
  let main_cst : FVec F S_ .f32 := constant S_ .f32 0x7F800000#32
  let main_v1 : FVec F S32768x2x1024 .f32 := broadcastInDim S32768x2x1024 ![] bcast_S_S32768x2x1024 main_cst
  let main_v2 : IVec S32768x2x1024 1 := cmpf .olt main_v0 main_v1
  let main_c : IVec S_ 1 := constantI S_ 1 1#1
  let main_v3 : IVec S_ 1 := (fun x v => Host.reduce IntOp.andi x v reducesTo_S32768x2x1024_S_d0_1_2 h_S_) main_v2 main_c
  let main_v4 : FVec F S32768x2x1024 .f32 := Host.absf main_arg1
  let main_cst_0 : FVec F S_ .f32 := constant S_ .f32 0x7F800000#32
  let main_v5 : FVec F S32768x2x1024 .f32 := broadcastInDim S32768x2x1024 ![] bcast_S_S32768x2x1024 main_cst_0
  let main_v6 : IVec S32768x2x1024 1 := cmpf .olt main_v4 main_v5
  let main_c_1 : IVec S_ 1 := constantI S_ 1 1#1
  let main_v7 : IVec S_ 1 := (fun x v => Host.reduce IntOp.andi x v reducesTo_S32768x2x1024_S_d0_1_2 h_S_) main_v6 main_c_1
  let main_v8 : IVec S_ 1 := andi main_v3 main_v7
  main_v8
-- ==== Kernel.lean ====
abbrev S32768x2x1024 : Shape := ⟨3, ![32768, 2, 1024]⟩
abbrev S32768x2048 : Shape := ⟨2, ![32768, 2048]⟩
abbrev S32768 : Shape := ⟨1, ![32768]⟩
abbrev S512x2048 : Shape := ⟨2, ![512, 2048]⟩
abbrev S512 : Shape := ⟨1, ![512]⟩
abbrev S512x1024 : Shape := ⟨2, ![512, 1024]⟩
abbrev S_ : Shape := ⟨0, ![]⟩

abbrev nBuf : Space → Nat
  | .hbm => 9
  | .vmem => 6
  | .smem => 0
  | _ => 0

abbrev bufTy : (tb : Table) → Fin (tcTables nBuf tb) → BufTy
  | .hbm, ⟨0, _⟩ => ⟨S32768x2x1024, .f32⟩
  | .hbm, ⟨1, _⟩ => ⟨S32768x2x1024, .f32⟩
  | .hbm, ⟨2, _⟩ => ⟨S32768x2048, .f32⟩
  | .hbm, ⟨3, _⟩ => ⟨S32768x2048, .f32⟩
  | .hbm, ⟨4, _⟩ => ⟨S32768, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512, .f32⟩
  | .local _ .vmem, ⟨5, _⟩ => ⟨S512, .f32⟩
  | _, _ => ⟨S32768x2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S32768x2x1024_S32768x2048 : S32768x2x1024.ShapeCasts S32768x2048
  inb_S512x2048_S512x1024_0_0 : ∀ a, (![0, 0] : Fin 2 → Nat) a + S512x1024.size a ≤ S512x2048.size a
  h_S512x1024 : 0 < S512x1024.numel
  shapeCasts_S512x1024_S512x1024 : S512x1024.ShapeCasts S512x1024
  inb_S512x2048_S512x1024_0_1024 : ∀ a, (![0, 1024] : Fin 2 → Nat) a + S512x1024.size a ≤ S512x2048.size a
  reduces_S512x1024_S512 : S512x1024.Reduces [1] S512
  inb_S512_S512_0 : ∀ a, (![0] : Fin 1 → Nat) a + S512.size a ≤ S512.size a
  h_S512 : 0 < S512.numel
  reducesTo_S32768_S_d0 : S32768.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S32768x2048.size a
  hwx0_0 : ∀ i : grid0.Coords, EltTy.bits .f32 = 32 ∨ (Rect.block (s := S32768x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S32768x2048.size a
  hwx0_1 : ∀ i : grid0.Coords, EltTy.bits .f32 = 32 ∨ (Rect.block (s := S32768x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S32768.size a
  hwx0_2 : ∀ i : grid0.Coords, EltTy.bits .f32 = 32 ∨ (Rect.block (s := S32768) S512.size (cc0_transform_2 i) (hinb0_2 i)).WholeWords (EltTy.packing .f32)

variable [Facts₀]

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32768x2x1024 : Shape := ⟨3, ![32768, 2, 1024]⟩
abbrev S_ : Shape := ⟨0, ![]⟩
abbrev S32768x2 : Shape := ⟨2, ![32768, 2]⟩
abbrev S32768x2x1 : Shape := ⟨3, ![32768, 2, 1]⟩
abbrev S32768x2x2 : Shape := ⟨3, ![32768, 2, 2]⟩
abbrev S32768x1x1 : Shape := ⟨3, ![32768, 1, 1]⟩
abbrev S32768 : Shape := ⟨1, ![32768]⟩

abbrev nBuf : Space → Nat
  | .hbm => 45
  | .vmem => 0
  | .smem => 0
  | _ => 0

abbrev bufTy : (tb : Table) → Fin (tcTables nBuf tb) → BufTy
  | .hbm, ⟨0, _⟩ => ⟨S32768x2x1024, .f32⟩
  | .hbm, ⟨1, _⟩ => ⟨S32768x2x1024, .f32⟩
  | .hbm, ⟨2, _⟩ => ⟨S32768x2x1024, .f32⟩
  | .hbm, ⟨3, _⟩ => ⟨S_, .f32⟩
  | .hbm, ⟨4, _⟩ => ⟨S32768x2, .f32⟩
  | .hbm, ⟨5, _⟩ => ⟨S32768x2x1, .f32⟩
  | .hbm, ⟨6, _⟩ => ⟨S32768x2x1, .f32⟩
  | .hbm, ⟨7, _⟩ => ⟨S_, .f32⟩
  | .hbm, ⟨8, _⟩ => ⟨S32768x2x1, .f32⟩
  | .hbm, ⟨9, _⟩ => ⟨S32768x2x1, .f32⟩
  | .hbm, ⟨10, _⟩ => ⟨S32768x2x1024, .f32⟩
  | .hbm, ⟨11, _⟩ => ⟨S32768x2x1024, .f32⟩
  | .hbm, ⟨12, _⟩ => ⟨S32768x2x1024, .f32⟩
  | .hbm, ⟨13, _⟩ => ⟨S_, .f32⟩
  | .hbm, ⟨14, _⟩ => ⟨S32768x2, .f32⟩
  | .hbm, ⟨15, _⟩ => ⟨S32768x2x1, .f32⟩
  | .hbm, ⟨16, _⟩ => ⟨S32768x2x1, .f32⟩
  | .hbm, ⟨17, _⟩ => ⟨S_, .f32⟩
  | .hbm, ⟨18, _⟩ => ⟨S32768x2x1, .f32⟩
  | .hbm, ⟨19, _⟩ => ⟨S32768x2x1, .f32⟩
  | .hbm, ⟨20, _⟩ => ⟨S32768x2x1024, .f32⟩
  | .hbm, ⟨21, _⟩ => ⟨S32768x2x1024, .f32⟩
  | .hbm, ⟨22, _⟩ => ⟨S32768x2x2, .f32⟩
  | .hbm, ⟨23, _⟩ => ⟨S32768x1x1, .f32⟩
  | .hbm, ⟨24, _⟩ => ⟨S32768, .f32⟩
  | .hbm, ⟨25, _⟩ => ⟨S32768x1x1, .f32⟩
  | .hbm, ⟨26, _⟩ => ⟨S32768, .f32⟩
  | .hbm, ⟨27, _⟩ => ⟨S32768, .f32⟩
  | .hbm, ⟨28, _⟩ => ⟨S32768x1x1, .f32⟩
  | .hbm, ⟨29, _⟩ => ⟨S32768, .f32⟩
  | .hbm, ⟨30, _⟩ => ⟨S32768x1x1, .f32⟩
  | .hbm, ⟨31, _⟩ => ⟨S32768, .f32⟩
  | .hbm, ⟨32, _⟩ => ⟨S32768, .f32⟩
  | .hbm, ⟨33, _⟩ => ⟨S32768, .i1⟩
  | .hbm, ⟨34, _⟩ => ⟨S32768, .f32⟩
  | .hbm, ⟨35, _⟩ => ⟨S_, .f32⟩
  | .hbm, ⟨36, _⟩ => ⟨S32768, .f32⟩
  | .hbm, ⟨37, _⟩ => ⟨S32768, .f32⟩
  | .hbm, ⟨38, _⟩ => ⟨S_, .f32⟩
  | .hbm, ⟨39, _⟩ => ⟨S32768, .f32⟩
  | .hbm, ⟨40, _⟩ => ⟨S32768, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | _, _ => ⟨S32768x2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_3 : Ref sig .tc := ⟨.hbm, 35, rfl⟩
abbrev main_v29 : Ref sig .tc := ⟨.hbm, 36, rfl⟩
abbrev main_v30 : Ref sig .tc := ⟨.hbm, 37, rfl⟩
abbrev main_cst_4 : Ref sig .tc := ⟨.hbm, 38, rfl⟩
abbrev main_v31 : Ref sig .tc := ⟨.hbm, 39, rfl⟩
abbrev main_v32 : Ref sig .tc := ⟨.hbm, 40, rfl⟩
abbrev main_cst_5 : Ref sig .tc := ⟨.hbm, 41, rfl⟩
abbrev main_v33 : Ref sig .tc := ⟨.hbm, 42, rfl⟩
abbrev main_cst_6 : Ref sig .tc := ⟨.hbm, 43, rfl⟩
abbrev main_v34 : Ref sig .tc := ⟨.hbm, 44, rfl⟩

abbrev nD : Nat := 1
abbrev τ : Topo := Topo.v7x

variable {F : FTy → Type} [FloatOps F]

class Facts₀ : Prop where
  reducesTo_S32768x2x1024_S32768x2_d2 : S32768x2x1024.ReducesTo [2] S32768x2
  h_S_ : 0 < S_.numel
  bcast_S32768x2_S32768x2x1_0_1 : S32768x2.BroadcastsInDim S32768x2x1 (![0, 1] : Fin 2 → Fin S32768x2x1.rank)
  bcast_S_S32768x2x1 : S_.BroadcastsInDim S32768x2x1 (![] : Fin 0 → Fin S32768x2x1.rank)
  bcast_S32768x2x1_S32768x2x1024_0_1_2 : S32768x2x1.BroadcastsInDim S32768x2x1024 (![0, 1, 2] : Fin 3 → Fin S32768x2x1024.rank)
  slices_S32768x2x2_S32768x1x1_0_0_0 : S32768x2x2.Slices ![0, 0, 0] S32768x1x1
  shapeCasts_S32768x1x1_S32768 : S32768x1x1.ShapeCasts S32768
  slices_S32768x2x2_S32768x1x1_0_1_1 : S32768x2x2.Slices ![0, 1, 1] S32768x1x1
  slices_S32768x2x2_S32768x1x1_0_0_1 : S32768x2x2.Slices ![0, 0, 1] S32768x1x1
  slices_S32768x2x2_S32768x1x1_0_1_0 : S32768x2x2.Slices ![0, 1, 0] S32768x1x1
  bcast_S_S32768 : S_.BroadcastsInDim S32768 (![] : Fin 0 → Fin S32768.rank)
  reducesTo_S32768_S_d0 : S32768.ReducesTo [0] S_
  dot_S32768x2x1024_S32768x2x1024_S32768x2x2_2_2_1_1_0_0_wf : DotDims.WF S32768x2x1024 S32768x2x1024 S32768x2x2 [2] [2] [1] [1] [0] [0]

variable [Facts₀]

def dot_S32768x2x1024_S32768x2x1024_S32768x2x2_2_2_1_1_0_0 : DotDims S32768x2x1024 S32768x2x1024 S32768x2x2 where
  lhsContracting := [2]
  rhsContracting := [2]
  lhsNonContracting := [1]
  rhsNonContracting := [1]
  lhsBatch := [0]
  rhsBatch := [0]
  wf := dot_S32768x2x1024_S32768x2x1024_S32768x2x2_2_2_1_1_0_0_wf

class Facts : Prop extends Facts₀ where

variable [Facts]
-- ==== Proof.Cosine.lean ====
/-
  The mathematics of the loss, with no program in sight.

  A sample holds two prediction rows p0, p1 and two target rows g0, g1, each of 1024 extended reals.  The
  clamped norm of a row u is  n(u) = max (sqrt (sum_k u_k * u_k)) eps.  The cosine of a prediction row u with
  a target row v is written in two ways:
    as ONE quotient          (sum_k u_k * v_k) / (n(u) * n(v)),
    as a sum of quotients     sum_k (u_k / n(u)) * (v_k / n(v)).
  The loss of the sample is  1 - best / 2  (or  1 - best * (1/2)),  best the larger of the two pairings' sums
  c(p0,g0) + c(p1,g1)  and  c(p0,g1) + c(p1,g0).
  When every entry is a real number the two cosines agree: the norms are then positive reals, and in the
  reals  sum_k (u_k / a) * (v_k / b) = (sum_k u_k * v_k) / (a * b).  At an infinite entry the law can fail
  (a quotient by an infinite norm is zero term by term, while the single quotient need not be), so
  finiteness of the entries is a hypothesis.
-/
import Idealize.ShloMosaic.PureOps.Ideal
import Idealize.ShloMosaic.PureOps.Ideal.Laws
import Idealize.ShloMosaic.Lib.ValueIdx

noncomputable section

namespace Cert.SlotCosine

open Idealize.ShloMosaic

/-! ## The constants -/

/-- The clamp under the norms, the f32 nearest 1e-12. -/
def eps : EReal := Ideal.ofBits .f32 0x2B8CBCCC#32

/-- The clamp is a positive real. -/
theorem eps_real : ∃ e : ℝ, 0 < e ∧ eps = (e : EReal) := by
  unfold eps
  simp [Ideal.ofBits, Ideal.ieee, -EReal.coe_mul]

/-- The pattern of 0.5 is the real 1/2. -/
theorem half_real : Ideal.ofBits .f32 0x3F000000#32 = ((1 / 2 : ℝ) : EReal) := by
  simp [Ideal.ofBits, Ideal.ieee, -EReal.coe_mul] <;> norm_num

/-- The pattern of 2.0 is the real 2. -/
theorem two_real : Ideal.ofBits .f32 0x40000000#32 = ((2 : ℝ) : EReal) := by
  simp [Ideal.ofBits, Ideal.ieee, -EReal.coe_mul] <;> norm_num

/-- Halving: the product with 1/2 is the quotient by 2, on every extended real. -/
theorem mul_half_eq_div_two (x : EReal) :
    x * Ideal.ofBits .f32 0x3F000000#32 = Ideal.div x (Ideal.ofBits .f32 0x40000000#32) := by
  rw [half_real, two_real, Ideal.div_coe (by norm_num : (2 : ℝ) ≠ 0)]

/-! ## Sums of reals inside the extended reals -/

/-- The inclusion of the reals commutes with finite sums. -/
theorem coe_sum {ι : Type} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-! ## The norms and the two spellings of the cosine -/

/-- The clamped norm of a row. -/
def clampedNorm (u : Fin 1024 → EReal) : EReal := max (Ideal.sqrt (∑ k, u k * u k)) eps

/-- The cosine as one quotient: the dot product over the product of the clamped norms. -/
def cosQuot (u v : Fin 1024 → EReal) : EReal := Ideal.div (∑ k, u k * v k) (clampedNorm u * clampedNorm v)

/-- The cosine as the dot product of the two normalized rows. -/
def cosSum (u v : Fin 1024 → EReal) : EReal := ∑ k, Ideal.div (u k) (clampedNorm u) * Ideal.div (v k) (clampedNorm v)

/-- The larger of two pairing scores, as compare-and-select computes it. -/
def better (a b : EReal) : EReal := Scalar.select (Ideal.cmp .oge a b) a b

/-- The loss over quotient cosines, halving by the product with 1/2. -/
def lossQuot (p0 p1 g0 g1 : Fin 1024 → EReal) : EReal :=
  Ideal.ofBits .f32 0x3F800000#32
    - better (cosQuot p0 g0 + cosQuot p1 g1) (cosQuot p0 g1 + cosQuot p1 g0) * Ideal.ofBits .f32 0x3F000000#32

/-- The loss over summed cosines, halving by the quotient by 2. -/
def lossSum (p0 p1 g0 g1 : Fin 1024 → EReal) : EReal :=
  Ideal.ofBits .f32 0x3F800000#32
    - Ideal.div (better (cosSum p0 g0 + cosSum p1 g1) (cosSum p0 g1 + cosSum p1 g0)) (Ideal.ofBits .f32 0x40000000#32)

/-- The clamped norm of a row of reals is a positive real. -/
theorem clampedNorm_real (u : Fin 1024 → ℝ) :
    ∃ a : ℝ, 0 < a ∧ clampedNorm (fun k => (u k : EReal)) = (a : EReal) := by
  obtain ⟨e, he, hee⟩ := eps_real
  refine ⟨max (Real.sqrt (∑ k, u k * u k)) e, lt_max_of_lt_right he, ?_⟩
  unfold clampedNorm
  simp only [← EReal.coe_mul]
  rw [← coe_sum, hee, Ideal.sqrt_coe,
    if_neg (not_lt.mpr (Finset.sum_nonneg fun k _ => mul_self_nonneg (u k)))]
  exact (EReal.coe_strictMono.monotone.map_max).symm

/-- On rows of reals the two spellings of the cosine agree. -/
theorem cosSum_eq_cosQuot (u v : Fin 1024 → EReal) (hu : ∀ k, ∃ r : ℝ, u k = (r : EReal))
    (hv : ∀ k, ∃ r : ℝ, v k = (r : EReal)) : cosSum u v = cosQuot u v := by
  choose u' hu' using hu
  choose v' hv' using hv
  obtain rfl : u = fun k => (u' k : EReal) := funext hu'
  obtain rfl : v = fun k => (v' k : EReal) := funext hv'
  obtain ⟨a, ha, hna⟩ := clampedNorm_real u'
  obtain ⟨b, hb, hnb⟩ := clampedNorm_real v'
  unfold cosSum cosQuot
  rw [hna, hnb, ← EReal.coe_mul a b, Ideal.div_coe (mul_pos ha hb).ne']
  simp only [Ideal.div_coe ha.ne', Ideal.div_coe hb.ne', ← EReal.coe_mul]
  rw [← coe_sum, ← coe_sum, ← EReal.coe_mul]
  congr 1
  rw [Finset.sum_mul]
  refine Finset.sum_congr rfl fun k _ => ?_
  field_simp

/-- On samples of reals the two losses agree. -/
theorem lossSum_eq_lossQuot (p0 p1 g0 g1 : Fin 1024 → EReal)
    (hp0 : ∀ k, ∃ r : ℝ, p0 k = (r : EReal)) (hp1 : ∀ k, ∃ r : ℝ, p1 k = (r : EReal))
    (hg0 : ∀ k, ∃ r : ℝ, g0 k = (r : EReal)) (hg1 : ∀ k, ∃ r : ℝ, g1 k = (r : EReal)) :
    lossSum p0 p1 g0 g1 = lossQuot p0 p1 g0 g1 := by
  unfold lossSum lossQuot
  rw [cosSum_eq_cosQuot p0 g0 hp0 hg0, cosSum_eq_cosQuot p1 g1 hp1 hg1, cosSum_eq_cosQuot p0 g1 hp0 hg1,
    cosSum_eq_cosQuot p1 g0 hp1 hg0, mul_half_eq_div_two]

/-! ## The batch: 32768 samples of two rows each -/

/-- The shape of an argument array: sample, slot, entry. -/
abbrev Samples : Shape := ⟨3, ![32768, 2, 1024]⟩

/-- Row `s` of sample `b` of an argument array. -/
def row (x : Samples.Idx → EReal) (b : Fin 32768) (s : Fin 2) : Fin 1024 → EReal :=
  fun k => x (ValueIdx.ix3 b s k)

/-- The loss of sample `b` over summed cosines: predictions `x0`, targets `x1`. -/
def lossSumAt (x0 x1 : Samples.Idx → EReal) (b : Fin 32768) : EReal :=
  lossSum (row x0 b 0) (row x0 b 1) (row x1 b 0) (row x1 b 1)

/-- The loss of sample `b` over quotient cosines. -/
def lossQuotAt (x0 x1 : Samples.Idx → EReal) (b : Fin 32768) : EReal :=
  lossQuot (row x0 b 0) (row x0 b 1) (row x1 b 0) (row x1 b 1)

/-- On arrays of reals the two losses agree at every sample. -/
theorem lossSumAt_eq_lossQuotAt (x0 x1 : Samples.Idx → EReal) (h0 : ∀ i, ∃ r : ℝ, x0 i = (r : EReal))
    (h1 : ∀ i, ∃ r : ℝ, x1 i = (r : EReal)) (b : Fin 32768) : lossSumAt x0 x1 b = lossQuotAt x0 x1 b :=
  lossSum_eq_lossQuot _ _ _ _ (fun _ => h0 _) (fun _ => h0 _) (fun _ => h1 _) (fun _ => h1 _)

end Cert.SlotCosine

end
-- ==== Proof.Mean.lean ====
/-
  The mean over the batch, as BOTH programs compute it after the per-sample losses: the host's sum over the
  32768 entries starting from the zero pattern, divided by the pattern of 32768.0.  The two programs apply these
  same two operations to their per-sample arrays, so the certificate never opens them: equal arrays go in, equal
  scalars come out.
-/
import Idealize.ShloMosaic.PureOps
import Idealize.ShloMosaic.PureOps.Ideal

noncomputable section

namespace Cert.SlotCosine

open Idealize.ShloMosaic

/-- Sum from zero, then divide by 32768.0. -/
def batchMean (y : FVec Ideal ⟨1, ![32768]⟩ .f32) (h : (⟨1, ![32768]⟩ : Shape).ReducesTo [0] ⟨0, ![]⟩)
    (hu : 0 < (⟨0, ![]⟩ : Shape).numel) : FVec Ideal ⟨0, ![]⟩ .f32 :=
  Host.divf (F := Ideal) (Host.reduceAdd (F := Ideal) y (constant (F := Ideal) ⟨0, ![]⟩ .f32 0x00000000#32) h hu)
    (constant (F := Ideal) ⟨0, ![]⟩ .f32 0x47000000#32)

end Cert.SlotCosine

end
-- ==== Proof.Finite.lean ====
/-
  What the precondition gives.  The precondition computes, for each argument array, the conjunction over every
  entry of  |x| < +inf  (the pattern 0x7F800000 is +inf), and asks that the conjunction of the two be true.  An
  extended real whose absolute value  max x (-x)  is below +inf is neither infinity, hence a real number: under
  the precondition every entry of both argument arrays is a real.
-/
import proofs.«117126_j65781719105714_2_alg».proof.Pre_finite_inputs
import proofs.«117126_j65781719105714_2_alg».proof.Proof.Gen.Pre_finite_inputs
import Idealize.ShloMosaic.PureOps.Ideal
import Idealize.ShloMosaic.Lib.ReduceAll
import Idealize.ShloMosaic.Lib.Affine
import Idealize.ShloMosaic.Lib.ValueIdx

noncomputable section

namespace Cert.Pre_finite_inputs.Finite

open Cert.Pre_finite_inputs Idealize.ShloMosaic

instance : Subsingleton S_.Idx := ⟨fun a b => funext fun d => d.elim0⟩

/-- The pattern the entries are compared with is +inf. -/
theorem top_pattern : Ideal.ofBits .f32 0x7F800000#32 = ⊤ := by simp [Ideal.ofBits, Ideal.ieee]

/-- An extended real whose absolute value compares below +inf is a real. -/
theorem real_of_abs_lt (x : EReal)
    (h : Ideal.cmp .olt (max x (-x)) (Ideal.ofBits .f32 0x7F800000#32) = 1#1) : ∃ r : ℝ, x = (r : EReal) := by
  rw [top_pattern] at h
  have h' : max x (-x) < (⊤ : EReal) := by
    by_contra hn
    simp [Ideal.cmp, hn] at h
  induction x using EReal.rec with
  | bot => simp at h'
  | top => simp at h'
  | coe r => exact ⟨r, rfl⟩

/-- Under the precondition every entry of both argument arrays is a real. -/
theorem real_of_pre (x0 x1 : FVec Ideal S32768x2x1024 .f32) (h : fn (F := Ideal) x0 x1 = fun _ => 1#1) :
    (∀ i, ∃ r : ℝ, x0 i = (r : EReal)) ∧ (∀ i, ∃ r : ℝ, x1 i = (r : EReal)) := by
  have h0 := congrFun h ValueIdx.ix0
  dsimp only [fn] at h0
  obtain ⟨ha, hb⟩ := IntOp.andi_eq_one.mp h0
  exact ⟨fun i => real_of_abs_lt (x0 i) (Host.reduce_andi_all _ _ _ _ _ ha i),
    fun i => real_of_abs_lt (x1 i) (Host.reduce_andi_all _ _ _ _ _ hb i)⟩

end Cert.Pre_finite_inputs.Finite

end
-- ==== Proof.RefLoss.lean ====
/-
  The reference, read at a sample.  Its per-sample loss (the value it then averages) is, at sample b, the loss
  over SUMMED cosines of Proof/Cosine.lean: each argument row is divided by its clamped norm entry by entry, the
  batched contraction over the last axis is the dot product of two normalized rows, the four slices pick the
  four slot pairs, and compare-and-select keeps the larger pairing.  The host's sum of squares starts from the
  zero pattern, which is the real zero.
-/
import proofs.«117126_j65781719105714_2_alg».proof.Proof.Gen.ReferenceIdeal.Read
import proofs.«117126_j65781719105714_2_alg».proof.Proof.Cosine

noncomputable section

namespace Cert.ReferenceIdeal.RefLoss

open Cert.ReferenceIdeal Cert.ReferenceIdeal.Read Idealize.ShloMosaic Idealize.ShloMosaic.ValueIdx Cert.SlotCosine

/-- An argument array at the extended reals. -/
abbrev Arr := (⟨S32768x2x1024, .f32⟩ : BufTy).Contents (Elt Ideal)

/-! ## The norms -/

theorem idx_sq0 (b : Fin 32768) (s : Fin 2) (k : Fin 1024) :
    idx_main_v1 (idx_main_v2 (ix3 b s (0 : Fin 1))) k = ix3 b s k :=
  funext fun a => Fin.ext (by match a with | ⟨0, _⟩ => rfl | ⟨1, _⟩ => rfl | ⟨2, _⟩ => rfl)

theorem idx_sq1 (b : Fin 32768) (s : Fin 2) (k : Fin 1024) :
    idx_main_v9 (idx_main_v10 (ix3 b s (0 : Fin 1))) k = ix3 b s k :=
  funext fun a => Fin.ext (by match a with | ⟨0, _⟩ => rfl | ⟨1, _⟩ => rfl | ⟨2, _⟩ => rfl)

/-- The clamped norm the reference computes for prediction row `s` of sample `b`. -/
theorem norm_pred (x0 : Arr) (b : Fin 32768) (s : Fin 2) :
    val_main_v5 (F := Ideal) x0 (ix3 b s (0 : Fin 1)) = clampedNorm (row x0 b s) := by
  simp only [val_main_v5_apply, val_main_v3_apply, val_main_v2_apply, val_main_v1_apply, val_main_v4_apply,
    val_main_cst_0_apply, val_main_cst_apply, val_main_v0_apply, idx_sq0, Ideal.maximumf_def,
    Ideal.hostUnary_sqrt_def, Ideal.ofBits_def, Ideal.mulf_def, Ideal.ofBits_zero_f32, zero_add]
  rfl

/-- The clamped norm the reference computes for target row `s` of sample `b`. -/
theorem norm_tgt (x1 : Arr) (b : Fin 32768) (s : Fin 2) :
    val_main_v13 (F := Ideal) x1 (ix3 b s (0 : Fin 1)) = clampedNorm (row x1 b s) := by
  simp only [val_main_v13_apply, val_main_v11_apply, val_main_v10_apply, val_main_v9_apply, val_main_v12_apply,
    val_main_cst_2_apply, val_main_cst_1_apply, val_main_v8_apply, idx_sq1, Ideal.maximumf_def,
    Ideal.hostUnary_sqrt_def, Ideal.ofBits_def, Ideal.mulf_def, Ideal.ofBits_zero_f32, zero_add]
  rfl

/-! ## The normalized rows -/

theorem idx_bc0 (b : Fin 32768) (s : Fin 2) (k : Fin 1024) : idx_main_v6 (ix3 b s k) = ix3 b s (0 : Fin 1) :=
  funext fun a => Fin.ext (by match a with | ⟨0, _⟩ => rfl | ⟨1, _⟩ => rfl | ⟨2, _⟩ => rfl)

theorem idx_bc1 (b : Fin 32768) (s : Fin 2) (k : Fin 1024) : idx_main_v14 (ix3 b s k) = ix3 b s (0 : Fin 1) :=
  funext fun a => Fin.ext (by match a with | ⟨0, _⟩ => rfl | ⟨1, _⟩ => rfl | ⟨2, _⟩ => rfl)

theorem normalized_pred (x0 : Arr) (b : Fin 32768) (s : Fin 2) (k : Fin 1024) :
    val_main_v7 (F := Ideal) x0 (ix3 b s k) = Ideal.div (x0 (ix3 b s k)) (clampedNorm (row x0 b s)) := by
  rw [val_main_v7_apply, val_main_v6_apply, idx_bc0, norm_pred]; rfl

theorem normalized_tgt (x1 : Arr) (b : Fin 32768) (s : Fin 2) (k : Fin 1024) :
    val_main_v15 (F := Ideal) x1 (ix3 b s k) = Ideal.div (x1 (ix3 b s k)) (clampedNorm (row x1 b s)) := by
  rw [val_main_v15_apply, val_main_v14_apply, idx_bc1, norm_tgt]; rfl

/-! ## The four cosines -/

theorem lidx_eq (b : Fin 32768) (s s' : Fin 2) (k : Fin 1024) : lidx_main_v16 (ix3 b s s') k = ix3 b s k :=
  funext fun a => Fin.ext (by match a with | ⟨0, _⟩ => rfl | ⟨1, _⟩ => rfl | ⟨2, _⟩ => rfl)

theorem ridx_eq (b : Fin 32768) (s s' : Fin 2) (k : Fin 1024) : ridx_main_v16 (ix3 b s s') k = ix3 b s' k :=
  funext fun a => Fin.ext (by match a with | ⟨0, _⟩ => rfl | ⟨1, _⟩ => rfl | ⟨2, _⟩ => rfl)

/-- Entry (b, s, s') of the batched contraction is the summed cosine of prediction row s with target row s'. -/
theorem cos_at (x0 x1 : Arr) (b : Fin 32768) (s s' : Fin 2) :
    val_main_v16 (F := Ideal) x0 x1 (ix3 b s s') = cosSum (row x0 b s) (row x1 b s') := by
  rw [val_main_v16_apply]
  unfold cosSum
  refine Finset.sum_congr rfl fun k _ => ?_
  rw [lidx_eq, ridx_eq, normalized_pred, normalized_tgt]
  rfl

/-! ## The slices -/

theorem slot00 (b : Fin 32768) : idx_main_v17 (idx_main_v18 (ix1 b)) = ix3 b (0 : Fin 2) (0 : Fin 2) :=
  funext fun a => Fin.ext (by match a with | ⟨0, _⟩ => exact Nat.div_one _ | ⟨1, _⟩ => rfl | ⟨2, _⟩ => rfl)

theorem slot11 (b : Fin 32768) : idx_main_v19 (idx_main_v20 (ix1 b)) = ix3 b (1 : Fin 2) (1 : Fin 2) :=
  funext fun a => Fin.ext (by match a with | ⟨0, _⟩ => exact Nat.div_one _ | ⟨1, _⟩ => rfl | ⟨2, _⟩ => rfl)

theorem slot01 (b : Fin 32768) : idx_main_v22 (idx_main_v23 (ix1 b)) = ix3 b (0 : Fin 2) (1 : Fin 2) :=
  funext fun a => Fin.ext (by match a with | ⟨0, _⟩ => exact Nat.div_one _ | ⟨1, _⟩ => rfl | ⟨2, _⟩ => rfl)

theorem slot10 (b : Fin 32768) : idx_main_v24 (idx_main_v25 (ix1 b)) = ix3 b (1 : Fin 2) (0 : Fin 2) :=
  funext fun a => Fin.ext (by match a with | ⟨0, _⟩ => exact Nat.div_one _ | ⟨1, _⟩ => rfl | ⟨2, _⟩ => rfl)

/-! ## The per-sample loss -/

/-- The array the reference averages holds, at sample `i`, the loss over summed cosines. -/
theorem ref_loss (x0 x1 : Arr) (b : Fin 32768) :
    val_main_v32 (F := Ideal) x0 x1 (ix1 b) = lossSumAt x0 x1 b := by
  simp only [val_main_v32_apply, val_main_v31_apply, val_main_cst_4_apply, val_main_v30_apply, val_main_v29_apply,
    val_main_cst_3_apply, val_main_v28_apply, val_main_v27_apply, val_main_v21_apply, val_main_v26_apply,
    val_main_v18_apply, val_main_v17_apply, val_main_v20_apply, val_main_v19_apply, val_main_v23_apply,
    val_main_v22_apply, val_main_v25_apply, val_main_v24_apply, slot00, slot11, slot01, slot10, cos_at]
  rfl

end Cert.ReferenceIdeal.RefLoss

end
-- ==== Proof.RefResult.lean ====
/-
  The reference's result.  After the per-sample losses the reference sums them from the zero pattern and divides
  by the pattern of 32768.0 — the batch mean of Proof/Mean.lean — so its result is the batch mean of the losses
  over summed cosines.
-/
import proofs.«117126_j65781719105714_2_alg».proof.Proof.RefLoss
import proofs.«117126_j65781719105714_2_alg».proof.Proof.Mean

noncomputable section

namespace Cert.ReferenceIdeal.RefLoss

open Cert.ReferenceIdeal Cert.ReferenceIdeal.Gen Cert.ReferenceIdeal.Read Idealize.ShloMosaic Idealize.ShloMosaic.ValueIdx Cert.SlotCosine

/-- The array the reference averages, as one function of the argument arrays. -/
theorem ref_losses (x0 x1 : Arr) : val_main_v32 (F := Ideal) x0 x1 = fun i => lossSumAt x0 x1 (i 0) :=
  funext fun i => by
    obtain ⟨b, rfl⟩ : ∃ b : Fin 32768, i = ix1 b := ⟨i 0, eq_ix1 i⟩
    exact ref_loss x0 x1 b

/-- The reference's result is the batch mean of the losses over summed cosines. -/
theorem ref_result (x0 x1 : Arr) :
    val_main_v34 (F := Ideal) x0 x1 = batchMean (fun i => lossSumAt x0 x1 (i 0)) reducesTo_S32768_S_d0 h_S_ := by
  show batchMean (val_main_v32 (F := Ideal) x0 x1) _ _ = _
  rw [ref_losses]

end Cert.ReferenceIdeal.RefLoss

end
-- ==== Proof.BodyLoss.lean ====
/-
  The kernel body, read at a row.  The body loads the two halves of each staged block — for the predictions the
  rows p0 (lanes 0..1023) and p1 (lanes 1024..2047), for the targets g0 and g1 — and everything it computes for
  row r depends on row r of the four halves only: four clamped norms (a lane sum of squares, a square root, the
  clamp), four dot products (lane sums of products), four quotients, the two pairing sums, compare-and-select,
  and 1 - best * (1/2).  That is the loss over QUOTIENT cosines of Proof/Cosine.lean at the four rows.
-/
import proofs.«117126_j65781719105714_2_alg».proof.Proof.Gen.KernelIdeal.Skeleton
import proofs.«117126_j65781719105714_2_alg».proof.Proof.Cosine
import Idealize.ShloMosaic.Lib.ValueIdx
import Idealize.ShloMosaic.Lib.Pipeline.Value
import Idealize.ShloMosaic.PureOps.Ideal.Laws

noncomputable section

namespace Cert.KernelIdeal.BodyLoss

open Cert.KernelIdeal Cert.KernelIdeal.Gen Idealize.ShloMosaic Idealize.ShloMosaic.ValueIdx Cert.SlotCosine

/-- Row `r` of a loaded half-block. -/
def hrow (v : FVec Ideal S512x1024 .f32) (r : Fin 512) : Fin 1024 → EReal := fun k => v (ix2 r k)

/-- A lane sum at row `r` is the sum over the row. -/
theorem rowSum (v : FVec Ideal S512x1024 .f32) (h : S512x1024.Reduces [1] S512) (hφ : FKind.Formats .f32)
    (hacc : (0x00000000#32 : BitVec 32) = FKind.add.neutral .f32 hφ) (r : Fin 512) :
    multiReduction (F := Ideal) .add [1] S512 v 0x00000000#32 h hφ hacc (ix1 r) = ∑ k : Fin 1024, v (ix2 r k) := by
  refine (Ideal.multiReduction_add_single v _ h hφ hacc (ix1 r)).trans ?_
  refine Finset.sum_congr rfl fun k _ => congrArg v ?_
  funext a
  apply Fin.ext
  match a with
  | ⟨0, _⟩ => rfl
  | ⟨1, _⟩ => rfl

/-! ## The casts to the same shape vanish -/

theorem cast_p0 (v : FVec Ideal S512x1024 .f32) : k0_pay2 (F := Ideal) v = v := shapeCast_self v _
theorem cast_p1 (v : FVec Ideal S512x1024 .f32) : k0_pay3 (F := Ideal) v = v := shapeCast_self v _
theorem cast_g0 (v : FVec Ideal S512x1024 .f32) : k0_pay4 (F := Ideal) v = v := shapeCast_self v _
theorem cast_g1 (v : FVec Ideal S512x1024 .f32) : k0_pay5 (F := Ideal) v = v := shapeCast_self v _

/-! ## The four clamped norms -/

theorem norm_p0 (v : FVec Ideal S512x1024 .f32) (r : Fin 512) :
    k0_pay6 (F := Ideal) v (ix1 r) = clampedNorm (hrow v r) := by
  unfold k0_pay6
  rw [cast_p0]
  exact congrArg₂ max (congrArg Ideal.sqrt (rowSum _ _ _ _ r)) rfl

theorem norm_p1 (v : FVec Ideal S512x1024 .f32) (r : Fin 512) :
    k0_pay7 (F := Ideal) v (ix1 r) = clampedNorm (hrow v r) := by
  unfold k0_pay7
  rw [cast_p1]
  exact congrArg₂ max (congrArg Ideal.sqrt (rowSum _ _ _ _ r)) rfl

theorem norm_g0 (v : FVec Ideal S512x1024 .f32) (r : Fin 512) :
    k0_pay8 (F := Ideal) v (ix1 r) = clampedNorm (hrow v r) := by
  unfold k0_pay8
  rw [cast_g0]
  exact congrArg₂ max (congrArg Ideal.sqrt (rowSum _ _ _ _ r)) rfl

theorem norm_g1 (v : FVec Ideal S512x1024 .f32) (r : Fin 512) :
    k0_pay9 (F := Ideal) v (ix1 r) = clampedNorm (hrow v r) := by
  unfold k0_pay9
  rw [cast_g1]
  exact congrArg₂ max (congrArg Ideal.sqrt (rowSum _ _ _ _ r)) rfl

/-! ## The dot products -/

theorem dot_p0g1 (p0 g1 : FVec Ideal S512x1024 .f32) (r : Fin 512) :
    k0_pay10 (F := Ideal) p0 g1 (ix1 r) = ∑ k, hrow p0 r k * hrow g1 r k := by
  unfold k0_pay10
  rw [cast_p0, cast_g1]
  exact rowSum _ _ _ _ r

theorem dot_p1g0 (p1 g0 : FVec Ideal S512x1024 .f32) (r : Fin 512) :
    k0_pay11 (F := Ideal) p1 g0 (ix1 r) = ∑ k, hrow p1 r k * hrow g0 r k := by
  unfold k0_pay11
  rw [cast_p1, cast_g0]
  exact rowSum _ _ _ _ r

theorem dot_p1g1 (p1 g1 : FVec Ideal S512x1024 .f32) (r : Fin 512) :
    k0_pay12 (F := Ideal) p1 g1 (ix1 r) = ∑ k, hrow p1 r k * hrow g1 r k := by
  unfold k0_pay12
  rw [cast_p1, cast_g1]
  exact rowSum _ _ _ _ r

/-- The first cosine is computed whole inside the first part of the body. -/
theorem cos_p0g0 (p0 g0 : FVec Ideal S512x1024 .f32) (r : Fin 512) :
    k0_pay13 (F := Ideal) p0 g0 (ix1 r) = cosQuot (hrow p0 r) (hrow g0 r) := by
  unfold k0_pay13 cosQuot
  rw [cast_p0, cast_g0]
  exact congrArg₂ Ideal.div (rowSum _ _ _ _ r) (congrArg₂ (· * ·) (norm_p0 p0 r) (norm_g0 g0 r))

/-- The denominator of the second cosine. -/
theorem den_p0g1 (p0 g1 : FVec Ideal S512x1024 .f32) (r : Fin 512) :
    k0_pay14 (F := Ideal) p0 g1 (ix1 r) = clampedNorm (hrow p0 r) * clampedNorm (hrow g1 r) := by
  unfold k0_pay14
  exact congrArg₂ (· * ·) (norm_p0 p0 r) (norm_g1 g1 r)

/-! ## The stored value -/

/-- What the last part of the body does with the eight values it is handed, at one row. -/
def combine (n1 m0 m1 d01 d10 d11 c00 den01 : EReal) : EReal :=
  Ideal.ofBits .f32 0x3F800000#32
    - better (c00 + Ideal.div d11 (n1 * m1)) (Ideal.div d01 den01 + Ideal.div d10 (n1 * m0)) * Ideal.ofBits .f32 0x3F000000#32

theorem stored_at (v17 v22 v27 v31 v33 v35 v37 v38 : FVec Ideal S512 .f32) (i : S512.Idx) :
    k0_pay1 (F := Ideal) v17 v22 v27 v31 v33 v35 v37 v38 i
      = combine (v17 i) (v22 i) (v27 i) (v31 i) (v33 i) (v35 i) (v37 i) (v38 i) := rfl

/-- THE BODY AT A ROW: the stored value at row `r` is the loss over quotient cosines of row `r` of the four halves. -/
theorem body_loss (p0 p1 g0 g1 : FVec Ideal S512x1024 .f32) (r : Fin 512) :
    k0_pay1 (F := Ideal) (k0_pay7 p1) (k0_pay8 g0) (k0_pay9 g1) (k0_pay10 p0 g1) (k0_pay11 p1 g0) (k0_pay12 p1 g1)
        (k0_pay13 p0 g0) (k0_pay14 p0 g1) (ix1 r)
      = lossQuot (hrow p0 r) (hrow p1 r) (hrow g0 r) (hrow g1 r) := by
  rw [stored_at, norm_p1, norm_g0, norm_g1, dot_p0g1, dot_p1g0, dot_p1g1, cos_p0g0, den_p0g1]
  rfl

end Cert.KernelIdeal.BodyLoss

end
-- ==== Proof.KernelLoss.lean ====
/-
  From blocks to the array.  The kernel's program first merges the two trailing axes of each argument
  (entry (b, s, k) of [32768, 2, 1024] becomes entry (b, 1024 * s + k) of [32768, 2048]), then runs the body
  over 64 blocks of 512 rows.  Point t stages rows 512 t .. 512 t + 511 of both merged arrays and writes back
  rows 512 t .. 512 t + 511 of the output; row r of the block is row 512 t + r of the arrays, and lanes
  0..1023 / 1024..2047 of a merged row are slot 0 / slot 1 of the sample.  So every point writes back a block of
  ONE function of the argument arrays — sample b's loss over quotient cosines — and the 64 blocks cover the
  output, which therefore ends holding that function.
-/
import proofs.«117126_j65781719105714_2_alg».proof.Proof.Gen.KernelIdeal.Frame
import proofs.«117126_j65781719105714_2_alg».proof.Proof.BodyLoss
import proofs.«117126_j65781719105714_2_alg».proof.Proof.Cosine
import Idealize.ShloMosaic.Lib.Pipeline.Value
import Idealize.ShloMosaic.Lib.ValueIdx
import Idealize.ShloMosaic.Lib.StableHlo.Run

set_option maxRecDepth 16384

noncomputable section

namespace Cert.KernelIdeal.KernelLoss

open Cert.KernelIdeal Cert.KernelIdeal.Gen Idealize.ShloMosaic Idealize.ShloMosaic.TcCoe Idealize.SL.Sem
open Idealize.ShloMosaic.ValueIdx Cert.SlotCosine Cert.KernelIdeal.BodyLoss
open Idealize.ShloMosaic.Pipeline (Dat)

variable (m : (ℓ : Loc nD τ sig) → Buf (Elt Ideal) ℓ) (ρ : Dev nD → PrngReg)

/-! ## Lanes of a merged row -/

/-- Lane `k` of slot 0. -/
def lane0 (k : Fin 1024) : Fin 2048 := ⟨k.val, by omega⟩
/-- Lane `k` of slot 1. -/
def lane1 (k : Fin 1024) : Fin 2048 := ⟨1024 + k.val, by omega⟩

/-- Slot 0 of row `b` of a merged array. -/
def lo (a : S32768x2048.Idx → EReal) (b : Fin 32768) : Fin 1024 → EReal := fun k => a (ix2 b (lane0 k))
/-- Slot 1 of row `b` of a merged array. -/
def hi (a : S32768x2048.Idx → EReal) (b : Fin 32768) : Fin 1024 → EReal := fun k => a (ix2 b (lane1 k))

/-- Sample `b`'s loss over quotient cosines, from the merged arrays. -/
def mergedLoss (a0 a1 : S32768x2048.Idx → EReal) (b : Fin 32768) : EReal :=
  lossQuot (lo a0 b) (hi a0 b) (lo a1 b) (hi a1 b)

/-- The output array as one function of the merged arrays. -/
def G (a0 a1 : S32768x2048.Idx → EReal) : S32768.Idx → EReal := fun i => mergedLoss a0 a1 (i 0)

/-! ## The body's loads are the two halves of a staged row -/

theorem half0_row (x : Vec Ideal S512x2048 .f32) (r : Fin 512) :
    hrow (View.ld x r0_0 : Vec Ideal S512x1024 .f32) r = fun k => x (ix2 r (lane0 k)) := by
  funext k
  show x (r0_0.idx (ix2 r k)) = _
  refine congrArg x (funext fun a => Fin.ext ?_)
  match a with
  | ⟨0, _⟩ => show 0 + 1 * r.val = r.val; omega
  | ⟨1, _⟩ => show 0 + 1 * k.val = k.val; omega

theorem half1_row (x : Vec Ideal S512x2048 .f32) (r : Fin 512) :
    hrow (View.ld x r0_1 : Vec Ideal S512x1024 .f32) r = fun k => x (ix2 r (lane1 k)) := by
  funext k
  show x (r0_1.idx (ix2 r k)) = _
  refine congrArg x (funext fun a => Fin.ext ?_)
  match a with
  | ⟨0, _⟩ => show 0 + 1 * r.val = r.val; omega
  | ⟨1, _⟩ => show 1024 + 1 * k.val = 1024 + k.val; omega

/-- THE BODY AT A POINT, over plain variables: if row `r` of the two staged blocks is row `b` of the two arrays,
    the value stored at row `r` is sample `b`'s loss. -/
theorem point_loss (x0 x1 : Vec Ideal S512x2048 .f32) (a0 a1 : S32768x2048.Idx → EReal) (r : Fin 512) (b : Fin 32768)
    (i : S32768.Idx) (hb : i 0 = b)
    (h0 : ∀ l : Fin 2048, x0 (ix2 r l) = a0 (ix2 b l)) (h1 : ∀ l : Fin 2048, x1 (ix2 r l) = a1 (ix2 b l)) :
    k0_pay1 (F := Ideal) (k0_pay7 (View.ld x0 r0_1)) (k0_pay8 (View.ld x1 r0_0)) (k0_pay9 (View.ld x1 r0_1))
        (k0_pay10 (View.ld x0 r0_0) (View.ld x1 r0_1)) (k0_pay11 (View.ld x0 r0_1) (View.ld x1 r0_0))
        (k0_pay12 (View.ld x0 r0_1) (View.ld x1 r0_1)) (k0_pay13 (View.ld x0 r0_0) (View.ld x1 r0_0))
        (k0_pay14 (View.ld x0 r0_0) (View.ld x1 r0_1)) (ix1 r)
      = G a0 a1 i := by
  refine (body_loss (View.ld x0 r0_0) (View.ld x0 r0_1) (View.ld x1 r0_0) (View.ld x1 r0_1) r).trans ?_
  show _ = mergedLoss a0 a1 (i 0)
  rw [hb, half0_row, half1_row, half0_row, half1_row]
  simp only [h0, h1]
  rfl

/-! ## The index maps, decided over the 64 points -/

theorem hz : (![0] : Fin 1 → Nat) = fun _ => 0 := funext fun a => by fin_cases a <;> rfl

/-- Both inputs' blocks move with the output's block along the rows, and are whole along the lanes. -/
theorem idx_facts : ∀ t : Fin cfg0.N, win0_0.index t (0 : Fin 2) = win0_2.index t (0 : Fin 1)
    ∧ win0_0.index t (1 : Fin 2) = 0
    ∧ win0_1.index t (0 : Fin 2) = win0_2.index t (0 : Fin 1)
    ∧ win0_1.index t (1 : Fin 2) = 0
    ∧ win0_2.index t (0 : Fin 1) ≤ 63 :=
  (by decide +kernel : ∀ t : Fin grid0.N, _)

/-- Every block of the output is some point's. -/
theorem idx_onto : ∀ q : Fin 64, ∃ t : Fin cfg0.N, win0_2.index t = ![q.val] :=
  (by decide +kernel : ∀ q : Fin 64, ∃ t : Fin grid0.N, win0_2.index t = ![q.val])

/-! ## What a point writes back -/

/-- WHAT POINT `t` WRITES BACK is block `t` of `G` of the merged arrays as the region finds them. -/
theorem flushed_eq (c : Dev nD) (t : Fin cfg0.N) :
    (dats m 0 c).flushed 2 t = ((cfg0.win 2).blk t).view.read (Elt Ideal) (G (V m c main_v0) (V m c main_v1)) := by
  show (cfg0.win 2).cut (grid0.coords t) ((dats m 0 c).after 2 t) = _
  rw [after0_2]
  unfold out0_2
  rw [View.canon_unit_zero hz]
  obtain ⟨e0, e1, e2, e3, e4⟩ := idx_facts t
  funext j
  obtain ⟨r, rfl⟩ : ∃ r : Fin 512, j = ix1 r := ⟨j 0, eq_ix1 j⟩
  refine point_loss (iblk m c 0 t) (iblk m c 1 t) (V m c main_v0) (V m c main_v1) r
    ⟨win0_2.index t (0 : Fin 1) * 512 + r.val, by omega⟩ (((cfg0.win 2).blk t).view.emb (ix1 r)) (Fin.ext ?_) (fun l => ?_) (fun l => ?_)
  · show win0_2.index t (0 : Fin 1) * 512 + 1 * r.val = win0_2.index t (0 : Fin 1) * 512 + r.val
    omega
  · show V m c main_v0 (((cfg0.win 0).blk t).view.emb (ix2 r l)) = V m c main_v0 _
    refine congrArg (V m c main_v0) (funext fun a => Fin.ext ?_)
    match a with
    | ⟨0, _⟩ => show win0_0.index t (0 : Fin 2) * 512 + 1 * r.val = win0_2.index t (0 : Fin 1) * 512 + r.val; omega
    | ⟨1, _⟩ => show win0_0.index t (1 : Fin 2) * 2048 + 1 * l.val = l.val; omega
  · show V m c main_v1 (((cfg0.win 1).blk t).view.emb (ix2 r l)) = V m c main_v1 _
    refine congrArg (V m c main_v1) (funext fun a => Fin.ext ?_)
    match a with
    | ⟨0, _⟩ => show win0_1.index t (0 : Fin 2) * 512 + 1 * r.val = win0_2.index t (0 : Fin 1) * 512 + r.val; omega
    | ⟨1, _⟩ => show win0_1.index t (1 : Fin 2) * 2048 + 1 * l.val = l.val; omega

/-! ## The cover -/

/-- An index of the output is in point `t`'s block iff its row is in the block's range. -/
theorem mem_blk (t : Fin cfg0.N) (i : S32768.Idx) :
    i ∈ ((cfg0.win 2).blk t).view.set ↔ ∀ a : Fin 1, win0_2.index t a * S512.size a ≤ (i a).val ∧ (i a).val < win0_2.index t a * S512.size a + S512.size a := by
  show i ∈ ((View.whole main_v2).slice (win0_2.rect t)).set ↔ _
  rw [View.set_slice_whole, Rect.mem_set_unit]
  exact Iff.rfl

/-- Row `i` is in the block of the point whose block index is `i / 512`. -/
theorem cover (i : S32768.Idx) : ∃ t : Fin cfg0.N, (cfg0.win 2).flush t = true ∧ i ∈ ((cfg0.win 2).blk t).view.set := by
  have hi0 : (i 0).val < 32768 := (i 0).isLt
  obtain ⟨t, ht⟩ := idx_onto ⟨(i 0).val / 512, by omega⟩
  have q0 : win0_2.index t (0 : Fin 1) = (i 0).val / 512 := congrFun ht 0
  refine ⟨t, flush0_2 t, ?_⟩
  rw [mem_blk]
  intro a
  match a with
  | ⟨0, _⟩ => show win0_2.index t (0 : Fin 1) * 512 ≤ (i 0).val ∧ (i 0).val < win0_2.index t (0 : Fin 1) * 512 + 512; omega

/-- THE OUTPUT ARRAY after the region: `G` of the merged arrays. -/
theorem final (c : Dev nD) : (dats m 0 c).arrAt 2 cfg0.N = G (V m c main_v0) (V m c main_v1) :=
  (dats m 0 c).arrAt_eq_of_cover 2 (G (V m c main_v0) (V m c main_v1)) (fun t _ => flushed_eq m c t) cover

end Cert.KernelIdeal.KernelLoss

end
-- ==== Proof.KernelRun.lean ====
/-
  The kernel's program, run.  Before the region the host merges the two trailing axes of each argument, so the
  arrays the region stages are the arguments read at (b, 1024 * s + k) = (b, s, k): slot 0 / slot 1 of a merged
  row are rows (b, 0, ·) / (b, 1, ·) of the argument.  After the region the host averages the output array.
  Hence the program ends with its result at the mean over the batch of each sample's loss over quotient cosines
  of the argument arrays, and with its arguments unchanged.
-/
import proofs.«117126_j65781719105714_2_alg».proof.Proof.Gen.KernelIdeal.Frame
import proofs.«117126_j65781719105714_2_alg».proof.Proof.KernelLoss
import proofs.«117126_j65781719105714_2_alg».proof.Proof.Mean
import Idealize.ShloMosaic.Lib.Pipeline.Value
import Idealize.ShloMosaic.Lib.ValueIdx
import Idealize.ShloMosaic.Lib.StableHlo.Run

set_option maxRecDepth 16384

noncomputable section

namespace Cert.KernelIdeal.KernelRun

open Cert.KernelIdeal Cert.KernelIdeal.Gen Idealize.ShloMosaic Idealize.ShloMosaic.TcCoe Idealize.SL.Sem
open Idealize.ShloMosaic.ValueIdx Cert.SlotCosine Cert.KernelIdeal.KernelLoss
open Idealize.ShloMosaic.Pipeline (Dat)

variable (m : (ℓ : Loc nD τ sig) → Buf (Elt Ideal) ℓ) (ρ : Dev nD → PrngReg)

/-! ## The merged arrays -/

/-- The first array the region stages is the first argument with its trailing axes merged. -/
theorem merged0 (c : Dev nD) : (V m c main_v0 : S32768x2048.Idx → EReal)
    = shapeCast S32768x2048 (m ((c : Thread nD τ).loc main_arg0)) shapeCasts_S32768x2x1024_S32768x2048 := by
  show StableHlo.after hostOps0 (fun b => m (c, b)) (Proc.devRef .tc main_v0) = _
  after_results
  rfl

/-- The second array the region stages is the second argument with its trailing axes merged. -/
theorem merged1 (c : Dev nD) : (V m c main_v1 : S32768x2048.Idx → EReal)
    = shapeCast S32768x2048 (m ((c : Thread nD τ).loc main_arg1)) shapeCasts_S32768x2x1024_S32768x2048 := by
  show StableHlo.after hostOps0 (fun b => m (c, b)) (Proc.devRef .tc main_v1) = _
  after_results
  rfl

/-- Entry (b, l) of a merged array is entry (b, s, k) of the argument when l = 1024 s + k. -/
theorem merged_at (x : S32768x2x1024.Idx → EReal) (h : S32768x2x1024.ShapeCasts S32768x2048) (b : Fin 32768)
    (s : Fin 2) (k : Fin 1024) (l : Fin 2048) (hl : l.val = s.val * 1024 + k.val) :
    shapeCast S32768x2048 x h (ix2 b l) = x (ix3 b s k) :=
  shapeCast_apply x h (ix2 b l) (ix3 b s k) (by
    rewrite [Shape.rowMajor_val_three, Shape.rowMajor_val_two]
    show (b.val * 2 + s.val) * 1024 + k.val = b.val * 2048 + l.val
    omega)

theorem lo_merged (x : S32768x2x1024.Idx → EReal) (h : S32768x2x1024.ShapeCasts S32768x2048) (b : Fin 32768) :
    lo (shapeCast S32768x2048 x h) b = row x b 0 :=
  funext fun k => merged_at x h b 0 k (lane0 k) (by show k.val = 0 * 1024 + k.val; omega)

theorem hi_merged (x : S32768x2x1024.Idx → EReal) (h : S32768x2x1024.ShapeCasts S32768x2048) (b : Fin 32768) :
    hi (shapeCast S32768x2048 x h) b = row x b 1 :=
  funext fun k => merged_at x h b 1 k (lane1 k) (by show 1024 + k.val = 1 * 1024 + k.val; omega)

/-- The output array as a function of the ARGUMENT arrays: sample by sample, the loss over quotient cosines. -/
theorem G_eq (c : Dev nD) : G (V m c main_v0) (V m c main_v1)
    = fun i => lossQuotAt (m ((c : Thread nD τ).loc main_arg0)) (m ((c : Thread nD τ).loc main_arg1)) (i 0) := by
  refine (congrArg₂ G (merged0 m c) (merged1 m c)).trans (funext fun i => ?_)
  obtain ⟨b, rfl⟩ : ∃ b : Fin 32768, i = ix1 b := ⟨i 0, eq_ix1 i⟩
  show mergedLoss _ _ b = lossQuotAt _ _ b
  unfold mergedLoss lossQuotAt
  rw [lo_merged, hi_merged, lo_merged, hi_merged]

/-! ## The host operations after the region -/

/-- The result buffer after the whole program: the mean of the output array the region left. -/
theorem tail_eq (c : Dev nD) : Pipeline.afterTail₀ cfgs (dats m) 0 (V0 m) [hostOps1] c main_v4
    = batchMean ((dats m 0 c).arrAt 2 cfg0.N) reducesTo_S32768_S_d0 h_S_ := by
  unfold Pipeline.afterTail₀
  show StableHlo.after hostOps1 _ (Proc.devRef .tc main_v4) = _
  after_results
  exact congrArg (batchMean · _ _) (Pipeline.withArrays_arr spec0 launch0.win.arr_inj c _ _ 2)

/-! ## The run -/

/-- Every weakly fair execution of the kernel's program terminates with its result at the batch mean of the
    samples' losses over quotient cosines of the argument arrays, the arguments unchanged. -/
theorem run : θ_run defs (onTc (τ := τ) (main (F := Ideal))) ⟨m, fun _ => 0, ρ⟩ fun r => ∀ c : Dev nD,
      r.2.mem ((c.tc : Thread nD τ).loc main_v4)
        = batchMean (fun i => lossQuotAt (m ((c.tc : Thread nD τ).loc main_arg0)) (m ((c.tc : Thread nD τ).loc main_arg1)) (i 0))
            reducesTo_S32768_S_d0 h_S_
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v4 (Pipeline.mem_restRefs_of main_v4 (by decide) (by decide))).trans
          ((tail_eq m c).trans (congrArg (batchMean · _ _) ((final m c).trans (G_eq m c)))),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.KernelRun

end
-- ==== Proof.lean ====
/-
  The certificate of the pairwise cosine loss: two slots of predictions against two slots of targets per sample,
  the better of the two pairings, averaged over the batch.

  The kernel normalizes AFTER the dot product: each cosine is  (sum_k p_k g_k) / (n(p) n(g))  with the clamped
  norms  n(u) = max (sqrt (sum_k u_k^2)) eps.  The reference normalizes BEFORE it:  sum_k (p_k / n(p)) (g_k / n(g)).
  On real entries these are the same number, because the clamped norms are then positive reals and a real factor
  moves across a finite sum; at an infinite entry they can differ, which is why the precondition (every input
  finite) is used.  The kernel halves by the product with 1/2, the reference by the quotient by 2: the same on
  every extended real.  Everything after the per-sample loss — the batch sum from zero and the division by
  32768 — is the same pair of host operations in both programs and is carried as one function.

  Modules: Cosine (the mathematics), Mean (the shared tail), Finite (the precondition gives reals), RefLoss and
  RefResult (the reference read sample by sample), BodyLoss (the kernel body read at a row), KernelLoss (blocks
  to the output array), KernelRun (the kernel's program run).  The word-level kernel needs only its frame; the
  idealization rewrote nothing, so `preserves` is trivial.
-/
import proofs.«117126_j65781719105714_2_alg».proof.Defs
import proofs.«117126_j65781719105714_2_alg».proof.Proof.Gen.Kernel
import proofs.«117126_j65781719105714_2_alg».proof.Proof.Gen.Kernel.Skeleton
import proofs.«117126_j65781719105714_2_alg».proof.Proof.Gen.Kernel.Launch
import proofs.«117126_j65781719105714_2_alg».proof.Proof.Gen.Kernel.Points
import proofs.«117126_j65781719105714_2_alg».proof.Proof.Gen.Kernel.Frame
import proofs.«117126_j65781719105714_2_alg».proof.Proof.Gen.KernelIdeal
import proofs.«117126_j65781719105714_2_alg».proof.Proof.Gen.KernelIdeal.Skeleton
import proofs.«117126_j65781719105714_2_alg».proof.Proof.Gen.KernelIdeal.Launch
import proofs.«117126_j65781719105714_2_alg».proof.Proof.Gen.KernelIdeal.Points
import proofs.«117126_j65781719105714_2_alg».proof.Proof.Gen.KernelIdeal.Frame
import proofs.«117126_j65781719105714_2_alg».proof.Proof.Gen.ReferenceIdeal
import proofs.«117126_j65781719105714_2_alg».proof.Proof.Gen.Pre_finite_inputs
import proofs.«117126_j65781719105714_2_alg».proof.Proof.Gen.ReferenceIdeal.Run
import proofs.«117126_j65781719105714_2_alg».proof.Proof.Gen.ReferenceIdeal.Read
import proofs.«117126_j65781719105714_2_alg».proof.Proof.Cosine
import proofs.«117126_j65781719105714_2_alg».proof.Proof.Mean
import proofs.«117126_j65781719105714_2_alg».proof.Proof.Finite
import proofs.«117126_j65781719105714_2_alg».proof.Proof.RefResult
import proofs.«117126_j65781719105714_2_alg».proof.Proof.KernelRun
import Idealize.ShloMosaic.Adequacy
import Idealize.ShloMosaic.Init

noncomputable section

namespace Cert.Proof

open Idealize.ShloMosaic Idealize.ShloMosaic.TcCoe Idealize.SL.Sem Cert.SlotCosine

/-- The word-level kernel runs and leaves its arguments unchanged. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference is a host program: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both programs end at the batch mean of the per-sample losses; under the precondition the entries are reals,
    where the loss over summed cosines is the loss over quotient cosines. -/
theorem algebraic : Cert.algebraic_KernelIdeal_ReferenceIdeal := by
  intro m ρ m' ρ' hpre hagree
  refine ⟨_, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, Cert.ReferenceIdeal.RefLoss.ref_result, (hagree c).1, (hagree c).2]
  obtain ⟨h0, h1⟩ := Cert.Pre_finite_inputs.Finite.real_of_pre _ _ (hpre c)
  exact congrArg (batchMean · _ _) (funext fun i => lossSumAt_eq_lossQuotAt _ _ h0 h1 (i 0))

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
